-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S8192 : Shape := ⟨1, ![8192]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : IVec S8192 32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  main_v3
-- ==== Kernel.lean ====
abbrev S8192x3 : Shape := ⟨2, ![8192, 3]⟩
abbrev S8192 : Shape := ⟨1, ![8192]⟩
abbrev S3 : Shape := ⟨1, ![3]⟩
abbrev S8192x1 : Shape := ⟨2, ![8192, 1]⟩
abbrev S1x3 : Shape := ⟨2, ![1, 3]⟩
abbrev S_ : Shape := ⟨0, ![]⟩
abbrev S3x8192 : Shape := ⟨2, ![3, 8192]⟩
abbrev S1x1 : Shape := ⟨2, ![1, 1]⟩
abbrev S1024x3 : Shape := ⟨2, ![1024, 3]⟩
abbrev S3x1024 : Shape := ⟨2, ![3, 1024]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩
abbrev S1 : Shape := ⟨1, ![1]⟩

abbrev nBuf : Space → Nat
  | .hbm => 44
  | .vmem => 6
  | .smem => 0
  | _ => 0

abbrev bufTy : (tb : Table) → Fin (tcTables nBuf tb) → BufTy
  | .hbm, ⟨0, _⟩ => ⟨S8192x3, .f32⟩
  | .hbm, ⟨1, _⟩ => ⟨S8192, .i32⟩
  | .hbm, ⟨2, _⟩ => ⟨S3, .f32⟩
  | .hbm, ⟨3, _⟩ => ⟨S8192x1, .i32⟩
  | .hbm, ⟨4, _⟩ => ⟨S1x3, .i32⟩
  | .hbm, ⟨5, _⟩ => ⟨S8192x3, .i32⟩
  | .hbm, ⟨6, _⟩ => ⟨S8192x3, .i32⟩
  | .hbm, ⟨7, _⟩ => ⟨S8192x3, .i1⟩
  | .hbm, ⟨8, _⟩ => ⟨S8192x3, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x3, .f32⟩
  | .hbm, ⟨13, _⟩ => ⟨S8192x3, .f32⟩
  | .hbm, ⟨14, _⟩ => ⟨S_, .f32⟩
  | .hbm, ⟨15, _⟩ => ⟨S8192x3, .f32⟩
  | .hbm, ⟨16, _⟩ => ⟨S8192x3, .f32⟩
  | .hbm, ⟨17, _⟩ => ⟨S1x3, .f32⟩
  | .hbm, ⟨18, _⟩ => ⟨S8192x3, .f32⟩
  | .hbm, ⟨19, _⟩ => ⟨S8192x3, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x3, .f32⟩
  | .hbm, ⟨27, _⟩ => ⟨S8192x3, .f32⟩
  | .hbm, ⟨28, _⟩ => ⟨S8192x3, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S8192x3, .f32⟩
  | .hbm, ⟨34, _⟩ => ⟨S8192x3, .f32⟩
  | .hbm, ⟨35, _⟩ => ⟨S8192x3, .f32⟩
  | .hbm, ⟨36, _⟩ => ⟨S8192x3, .f32⟩
  | .hbm, ⟨37, _⟩ => ⟨S3x8192, .f32⟩
  | .hbm, ⟨38, _⟩ => ⟨S1x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S3x1024, .f32⟩
  | .local _ .vmem, ⟨3, _⟩ => ⟨S3x1024, .f32⟩
  | .local _ .vmem, ⟨4, _⟩ => ⟨S1x1, .f32⟩
  | .local _ .vmem, ⟨5, _⟩ => ⟨S1x1, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst_0 : Ref sig .tc := ⟨.hbm, 9, rfl⟩
abbrev main_cst_1 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call2_cst : Ref sig .tc := ⟨.hbm, 20, rfl⟩
abbrev main_call2_v0 : Ref sig .tc := ⟨.hbm, 21, rfl⟩
abbrev main_call2_cst_0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_v6 : Ref sig .tc := ⟨.hbm, 28, rfl⟩
abbrev main_call2_cst_1 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_2 : Ref sig .tc := ⟨.hbm, 40, rfl⟩
abbrev main_v11 : Ref sig .tc := ⟨.hbm, 41, rfl⟩
abbrev main_cst_3 : Ref sig .tc := ⟨.hbm, 42, rfl⟩
abbrev main_v12 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v38 : BitVec 1 := Scalar.cmpi .eq arg0 c7_i32
  let arg1 : BitVec 32 := BitVec.ofNat 32 (i 1).val
  let c7_i32_11 : BitVec 32 := 7#32
  let v39 : BitVec 1 := Scalar.cmpi .eq arg1 c7_i32_11
  let v40 : BitVec 1 := Scalar.andi v38 v39
  let v41 : BitVec 32 := Scalar.extui v40
  let c0_i32_12 : BitVec 32 := 0#32
  let v42 : BitVec 1 := Scalar.cmpi .ne v41 c0_i32_12
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  bcast_S8192_S8192x1_0 : S8192.BroadcastsInDim S8192x1 (![0] : Fin 1 → Fin S8192x1.rank)
  bcast_S8192x1_S8192x3_0_1 : S8192x1.BroadcastsInDim S8192x3 (![0, 1] : Fin 2 → Fin S8192x3.rank)
  bcast_S1x3_S8192x3_0_1 : S1x3.BroadcastsInDim S8192x3 (![0, 1] : Fin 2 → Fin S8192x3.rank)
  bcast_S_S8192x3 : S_.BroadcastsInDim S8192x3 (![] : Fin 0 → Fin S8192x3.rank)
  bcast_S3_S1x3_1 : S3.BroadcastsInDim S1x3 (![1] : Fin 1 → Fin S1x3.rank)
  reducesTo_S8192x3_S8192_d1 : S8192x3.ReducesTo [1] S8192
  h_S_ : 0 < S_.numel
  bcast_S_S8192 : S_.BroadcastsInDim S8192 (![] : Fin 0 → Fin S8192.rank)
  transposes_S8192x3_S3x8192_1_0 : S8192x3.Transposes [1, 0] S3x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  slices_S1024x3_o0_0_S1024x1 : S1024x3.Slices ![0, 0] S1024x1
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S8192x3.size a
  hwx0_0 : ∀ i : grid0.Coords, EltTy.bits .f32 = 32 ∨ (Rect.block (s := S8192x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x8192.size a
  hwx0_1 : ∀ i : grid0.Coords, EltTy.bits .f32 = 32 ∨ (Rect.block (s := S3x8192) S3x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v7) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x3 : Shape := ⟨2, ![8192, 3]⟩
abbrev S8192 : Shape := ⟨1, ![8192]⟩
abbrev S3 : Shape := ⟨1, ![3]⟩
abbrev S8192x1 : Shape := ⟨2, ![8192, 1]⟩
abbrev S1x3 : Shape := ⟨2, ![1, 3]⟩
abbrev S_ : Shape := ⟨0, ![]⟩
abbrev S8192x8192 : Shape := ⟨2, ![8192, 8192]⟩

abbrev nBuf : Space → Nat
  | .hbm => 45
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192, .i32⟩
  | .hbm, ⟨2, _⟩ => ⟨S3, .f32⟩
  | .hbm, ⟨3, _⟩ => ⟨S8192x1, .i32⟩
  | .hbm, ⟨4, _⟩ => ⟨S1x3, .i32⟩
  | .hbm, ⟨5, _⟩ => ⟨S8192x3, .i32⟩
  | .hbm, ⟨6, _⟩ => ⟨S8192x3, .i32⟩
  | .hbm, ⟨7, _⟩ => ⟨S8192x3, .i1⟩
  | .hbm, ⟨8, _⟩ => ⟨S8192x3, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x3, .f32⟩
  | .hbm, ⟨13, _⟩ => ⟨S8192x3, .f32⟩
  | .hbm, ⟨14, _⟩ => ⟨S_, .f32⟩
  | .hbm, ⟨15, _⟩ => ⟨S8192x3, .f32⟩
  | .hbm, ⟨16, _⟩ => ⟨S8192x3, .f32⟩
  | .hbm, ⟨17, _⟩ => ⟨S1x3, .f32⟩
  | .hbm, ⟨18, _⟩ => ⟨S8192x3, .f32⟩
  | .hbm, ⟨19, _⟩ => ⟨S8192x3, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x3, .f32⟩
  | .hbm, ⟨27, _⟩ => ⟨S8192x3, .f32⟩
  | .hbm, ⟨28, _⟩ => ⟨S8192x3, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S8192x3, .f32⟩
  | .hbm, ⟨34, _⟩ => ⟨S8192x3, .f32⟩
  | .hbm, ⟨35, _⟩ => ⟨S8192x3, .f32⟩
  | .hbm, ⟨36, _⟩ => ⟨S8192x3, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst_0 : Ref sig .tc := ⟨.hbm, 9, rfl⟩
abbrev main_cst_1 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call2_cst : Ref sig .tc := ⟨.hbm, 20, rfl⟩
abbrev main_call2_v0 : Ref sig .tc := ⟨.hbm, 21, rfl⟩
abbrev main_call2_cst_0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_v6 : Ref sig .tc := ⟨.hbm, 28, rfl⟩
abbrev main_call2_cst_1 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_cst_3 : Ref sig .tc := ⟨.hbm, 41, rfl⟩
abbrev main_v11 : Ref sig .tc := ⟨.hbm, 42, rfl⟩
abbrev main_cst_4 : Ref sig .tc := ⟨.hbm, 43, rfl⟩
abbrev main_v12 : Ref sig .tc := ⟨.hbm, 44, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x3_0_1 : S8192x1.BroadcastsInDim S8192x3 (![0, 1] : Fin 2 → Fin S8192x3.rank)
  bcast_S1x3_S8192x3_0_1 : S1x3.BroadcastsInDim S8192x3 (![0, 1] : Fin 2 → Fin S8192x3.rank)
  bcast_S_S8192x3 : S_.BroadcastsInDim S8192x3 (![] : Fin 0 → Fin S8192x3.rank)
  bcast_S3_S1x3_1 : S3.BroadcastsInDim S1x3 (![1] : Fin 1 → Fin S1x3.rank)
  reducesTo_S8192x3_S8192_d1 : S8192x3.ReducesTo [1] S8192
  h_S_ : 0 < S_.numel
  bcast_S_S8192 : S_.BroadcastsInDim S8192 (![] : Fin 0 → Fin S8192.rank)
  reducesTo_S8192x8192_S_d0_1 : S8192x8192.ReducesTo [0, 1] S_
  dot_S8192x3_S8192x3_S8192x8192_1_1_0_0_n_n_wf : DotDims.WF S8192x3 S8192x3 S8192x8192 [1] [1] [0] [0] [] []

variable [Facts₀]

def dot_S8192x3_S8192x3_S8192x8192_1_1_0_0_n_n : DotDims S8192x3 S8192x3 S8192x8192 where
  lhsContracting := [1]
  rhsContracting := [1]
  lhsNonContracting := [0]
  rhsNonContracting := [0]
  lhsBatch := []
  rhsBatch := []
  wf := dot_S8192x3_S8192x3_S8192x8192_1_1_0_0_n_n_wf

class Facts : Prop extends Facts₀ where

variable [Facts]
-- ==== Proof.LogSoftmaxStage.lean ====
/-
  Log-softmax in two steps.

  Log-softmax of a row x is  (x - M) - log ∑ exp (x - M)  with M the row's maximum (taken against -∞).  The row
  maxima are one reduction over the array; everything after them is written here as one function of the array and of
  the vector of row maxima, so that the rest of the computation can be read with the maxima as a given vector.  With
  the reference's own row maxima put in, it is the reference's log-softmax stage.
-/
import proofs.«151473_j53927609369069_1_alg».proof.Proof.RefRead

noncomputable section

namespace Cert.ReferenceIdeal.LogSoftmaxStage

open Cert.ReferenceIdeal Cert.ReferenceIdeal.Gen Idealize.ShloMosaic Cert.ReferenceIdeal.ReadP

variable {F : FTy → Type} [FloatOps F]

/-- The rows with their maximum (against -∞) subtracted: x - M. -/
def shifted (x : (⟨S8192x3, .f32⟩ : BufTy).Contents (Elt F)) (rowMax : (⟨S8192, .f32⟩ : BufTy).Contents (Elt F)) :
    (⟨S8192x3, .f32⟩ : BufTy).Contents (Elt F) :=
  subf x (broadcastInDim S8192x3 ![0, 1] bcast_S8192x1_S8192x3_0_1 (broadcastInDim S8192x1 ![0] bcast_S8192_S8192x1_0
    (maximumf (broadcastInDim S8192 ![] bcast_S_S8192 (constant (F := F) S_ .f32 0xFF800000#32)) rowMax)))

/-- Log-softmax from the row maxima: (x - M) - log ∑ exp (x - M), the sum taken from zero. -/
def fromRowMax (x : (⟨S8192x3, .f32⟩ : BufTy).Contents (Elt F)) (rowMax : (⟨S8192, .f32⟩ : BufTy).Contents (Elt F)) :
    (⟨S8192x3, .f32⟩ : BufTy).Contents (Elt F) :=
  subf (shifted x rowMax) (broadcastInDim S8192x3 ![0, 1] bcast_S8192x1_S8192x3_0_1
    (Host.log (broadcastInDim S8192x1 ![0] bcast_S8192_S8192x1_0
      (Host.reduceAdd (Host.exp (shifted x rowMax)) (constant (F := F) S_ .f32 0x00000000#32) reducesTo_S8192x3_S8192_d1 h_S_))))

/-- With the reference's row maxima it is the reference's log-softmax stage. -/
theorem fromRowMax_stage (x : (⟨S8192x3, .f32⟩ : BufTy).Contents (Elt F)) :
    fromRowMax x (val_main_call2_v0 (F := F) x) = val_main_v5 (F := F) x := rfl

end Cert.ReferenceIdeal.LogSoftmaxStage

end
-- ==== Proof.RefValue.lean ====
/-
  The reference program read in stretches.

  The reference's 43 operations fall into: 18 that build the target array T from the integer labels (a one-hot
  array, clipped to [1e-4, 1], times the class weights); 15 that build log-softmax of the scores (2 for the row
  maxima, 13 for the rest, read with the maxima as a given vector); 2 that form
  D = log T - logsoftmax; and 8 that form the loss from D and T (the product D Tᵀ, absolute values, the sum of all
  entries from zero, the division by 2^26, plus 1e-4).  Each stretch is read on its own, from whatever contents it
  starts with; together they give the result buffer as the last stage function of the two arguments.
-/
import proofs.«151473_j53927609369069_1_alg».proof.Proof.RefRun
import proofs.«151473_j53927609369069_1_alg».proof.Proof.RefRead
import proofs.«151473_j53927609369069_1_alg».proof.Proof.LogSoftmaxStage

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The 18 operations that build the target array. -/
abbrev opsTarget : List (HloOp τ sig (Elt F)) :=
  [ nullary main_cst (constant S3 .f32 0x3F800000#32),
    TRef.unary (TRef.of (T := ⟨S8192, .i32⟩) main_arg1) (TRef.of (T := ⟨S8192x1, .i32⟩) main_call0_v0) (broadcastInDim S8192x1 ![0] bcast_S8192_S8192x1_0),
    TRef.nullary (TRef.of (T := ⟨S1x3, .i32⟩) main_call0_v1) (iotaInDim S1x3 32 1),
    TRef.unary (TRef.of (T := ⟨S8192x1, .i32⟩) main_call0_v0) (TRef.of (T := ⟨S8192x3, .i32⟩) main_call0_v2) (broadcastInDim S8192x3 ![0, 1] bcast_S8192x1_S8192x3_0_1),
    TRef.unary (TRef.of (T := ⟨S1x3, .i32⟩) main_call0_v1) (TRef.of (T := ⟨S8192x3, .i32⟩) main_call0_v3) (broadcastInDim S8192x3 ![0, 1] bcast_S1x3_S8192x3_0_1),
    TRef.binary (TRef.of (T := ⟨S8192x3, .i32⟩) main_call0_v2) (TRef.of (T := ⟨S8192x3, .i32⟩) main_call0_v3) (TRef.of (T := ⟨S8192x3, .i1⟩) main_call0_v4) (cmpi .eq),
    TRef.unary (TRef.of (T := ⟨S8192x3, .i1⟩) main_call0_v4) (TRef.of (T := ⟨S8192x3, .f32⟩) main_v0) (uitofp .f32),
    nullary main_cst_0 (constant S_ .f32 0x38D1B717#32),
    nullary main_cst_1 (constant S_ .f32 0x3F800000#32),
    TRef.unary (TRef.of (T := ⟨S_, .f32⟩) main_cst_0) (TRef.of (T := ⟨S_, .f32⟩) main_call1_v0) id,
    TRef.unary (TRef.of (T := ⟨S_, .f32⟩) main_call1_v0) (TRef.of (T := ⟨S8192x3, .f32⟩) main_call1_v1) (broadcastInDim S8192x3 ![] bcast_S_S8192x3),
    TRef.binary (TRef.of (T := ⟨S8192x3, .f32⟩) main_call1_v1) (TRef.of (T := ⟨S8192x3, .f32⟩) main_v0) (TRef.of (T := ⟨S8192x3, .f32⟩) main_call1_v2) maximumf,
    TRef.unary (TRef.of (T := ⟨S_, .f32⟩) main_cst_1) (TRef.of (T := ⟨S_, .f32⟩) main_call1_v3) id,
    TRef.unary (TRef.of (T := ⟨S_, .f32⟩) main_call1_v3) (TRef.of (T := ⟨S8192x3, .f32⟩) main_call1_v4) (broadcastInDim S8192x3 ![] bcast_S_S8192x3),
    TRef.binary (TRef.of (T := ⟨S8192x3, .f32⟩) main_call1_v4) (TRef.of (T := ⟨S8192x3, .f32⟩) main_call1_v2) (TRef.of (T := ⟨S8192x3, .f32⟩) main_v1) minimumf,
    unary main_cst main_v2 (broadcastInDim S1x3 ![1] bcast_S3_S1x3_1 : (⟨S3, .f32⟩ : BufTy).Contents (Elt F) → (⟨S1x3, .f32⟩ : BufTy).Contents (Elt F)),
    unary main_v2 main_v3 (broadcastInDim S8192x3 ![0, 1] bcast_S1x3_S8192x3_0_1 : (⟨S1x3, .f32⟩ : BufTy).Contents (Elt F) → (⟨S8192x3, .f32⟩ : BufTy).Contents (Elt F)),
    binary main_v1 main_v3 main_v4 (mulf : (⟨S8192x3, .f32⟩ : BufTy).Contents (Elt F) → (⟨S8192x3, .f32⟩ : BufTy).Contents (Elt F) → (⟨S8192x3, .f32⟩ : BufTy).Contents (Elt F)) ]

/-- The 2 operations of log-softmax that take the row maxima. -/
abbrev opsRowMax : List (HloOp τ sig (Elt F)) :=
  [ TRef.nullary (TRef.of (T := ⟨S_, .f32⟩) main_call2_cst) (constant S_ .f32 0xFF800000#32),
    TRef.binary (TRef.of (T := ⟨S8192x3, .f32⟩) main_arg0) (TRef.of (T := ⟨S_, .f32⟩) main_call2_cst) (TRef.of (T := ⟨S8192, .f32⟩) main_call2_v0) (fun x v => Host.reduce FloatOps.maximumf x v reducesTo_S8192x3_S8192_d1 h_S_) ]

/-- The other 13 operations of log-softmax. -/
abbrev opsLogSoftmaxRest : List (HloOp τ sig (Elt F)) :=
  [ TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x3, .f32⟩) main_call2_v4) (broadcastInDim S8192x3 ![0, 1] bcast_S8192x1_S8192x3_0_1),
    TRef.binary (TRef.of (T := ⟨S8192x3, .f32⟩) main_arg0) (TRef.of (T := ⟨S8192x3, .f32⟩) main_call2_v4) (TRef.of (T := ⟨S8192x3, .f32⟩) main_call2_v5) subf,
    TRef.unary (TRef.of (T := ⟨S8192x3, .f32⟩) main_call2_v5) (TRef.of (T := ⟨S8192x3, .f32⟩) main_call2_v6) Host.exp,
    TRef.nullary (TRef.of (T := ⟨S_, .f32⟩) main_call2_cst_1) (constant S_ .f32 0x00000000#32),
    TRef.binary (TRef.of (T := ⟨S8192x3, .f32⟩) main_call2_v6) (TRef.of (T := ⟨S_, .f32⟩) main_call2_cst_1) (TRef.of (T := ⟨S8192, .f32⟩) main_call2_v7) (fun x v => Host.reduceAdd x v reducesTo_S8192x3_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x3, .f32⟩) main_call2_v10) (broadcastInDim S8192x3 ![0, 1] bcast_S8192x1_S8192x3_0_1),
    TRef.binary (TRef.of (T := ⟨S8192x3, .f32⟩) main_call2_v5) (TRef.of (T := ⟨S8192x3, .f32⟩) main_call2_v10) (TRef.of (T := ⟨S8192x3, .f32⟩) main_v5) subf ]

/-- The 2 operations that form the difference of logarithms. -/
abbrev opsDiff : List (HloOp τ sig (Elt F)) :=
  [ unary main_v4 main_v6 (Host.log : (⟨S8192x3, .f32⟩ : BufTy).Contents (Elt F) → (⟨S8192x3, .f32⟩ : BufTy).Contents (Elt F)),
    binary main_v6 main_v5 main_v7 (subf : (⟨S8192x3, .f32⟩ : BufTy).Contents (Elt F) → (⟨S8192x3, .f32⟩ : BufTy).Contents (Elt F) → (⟨S8192x3, .f32⟩ : BufTy).Contents (Elt F)) ]

/-- The 8 operations that form the loss. -/
abbrev opsLoss : List (HloOp τ sig (Elt F)) :=
  [ binary main_v7 main_v4 main_v8 ((fun l r => Host.dotGeneral dot_S8192x3_S8192x3_S8192x8192_1_1_0_0_n_n none l r) : (⟨S8192x3, .f32⟩ : BufTy).Contents (Elt F) → (⟨S8192x3, .f32⟩ : BufTy).Contents (Elt F) → (⟨S8192x8192, .f32⟩ : BufTy).Contents (Elt F)),
    unary main_v8 main_v9 (Host.absf : (⟨S8192x8192, .f32⟩ : BufTy).Contents (Elt F) → (⟨S8192x8192, .f32⟩ : BufTy).Contents (Elt F)),
    nullary main_cst_2 (constant S_ .f32 0x00000000#32),
    binary main_v9 main_cst_2 main_v10 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_3 (constant S_ .f32 0x4C800000#32),
    binary main_v10 main_cst_3 main_v11 (Host.divf : (⟨S_, .f32⟩ : BufTy).Contents (Elt F) → (⟨S_, .f32⟩ : BufTy).Contents (Elt F) → (⟨S_, .f32⟩ : BufTy).Contents (Elt F)),
    nullary main_cst_4 (constant S_ .f32 0x38D1B717#32),
    binary main_cst_4 main_v11 main_v12 (addf : (⟨S_, .f32⟩ : BufTy).Contents (Elt F) → (⟨S_, .f32⟩ : BufTy).Contents (Elt F) → (⟨S_, .f32⟩ : BufTy).Contents (Elt F)) ]

set_option maxRecDepth 8192 in
/-- The program's operations are these four stretches in order. -/
theorem ops_split : (ValueP.ops (F := F)) = opsTarget ++ opsRowMax ++ opsLogSoftmaxRest ++ opsDiff ++ opsLoss := rfl

variable (W : Valuation τ sig (Elt F))

set_option maxHeartbeats 2000000 in
/-- The first stretch leaves the target array, a function of the labels, -/
theorem target_v4 : after opsTarget W (Proc.devRef .tc main_v4) = val_main_v4 (F := F) (W (Proc.devRef .tc main_arg1)) := by
  after_results_simp <;> rfl

set_option maxHeartbeats 2000000 in
/-- and the scores as they were. -/
theorem target_arg0 : after opsTarget W (Proc.devRef .tc main_arg0) = W (Proc.devRef .tc main_arg0) := by
  after_results_simp <;> rfl

/-- The row maxima: the max-reduce of the scores along each row. The operation's result is the reduction of what it
    reads, and reading and writing a buffer at its own type changes nothing. -/
theorem rowmax_v0 : after opsRowMax W (Proc.devRef .tc main_call2_v0) = val_main_call2_v0 (F := F) (W (Proc.devRef .tc main_arg0)) := by
  after_results_simp
  exact (eq_of_heq (cast_heq _ _)).trans rfl

/-- They leave the scores as they were, -/
theorem rowmax_arg0 : after opsRowMax W (Proc.devRef .tc main_arg0) = W (Proc.devRef .tc main_arg0) := by
  after_results_simp <;> rfl

/-- and the target array as it was. -/
theorem rowmax_v4 : after opsRowMax W (Proc.devRef .tc main_v4) = W (Proc.devRef .tc main_v4) := by
  after_results_simp <;> rfl

set_option maxHeartbeats 2000000 in
/-- The rest of log-softmax, from the scores and the row maxima, -/
theorem rest_v5 : after opsLogSoftmaxRest W (Proc.devRef .tc main_v5)
    = LogSoftmaxStage.fromRowMax (F := F) (W (Proc.devRef .tc main_arg0)) (W (Proc.devRef .tc main_call2_v0)) := by
  after_results_simp <;> rfl

set_option maxHeartbeats 2000000 in
/-- leaves the target array as it was. -/
theorem rest_v4 : after opsLogSoftmaxRest W (Proc.devRef .tc main_v4) = W (Proc.devRef .tc main_v4) := by
  after_results_simp <;> rfl

/-- The third stretch leaves log T - logsoftmax, -/
theorem diff_v7 : after opsDiff W (Proc.devRef .tc main_v7)
    = subf (Host.log (F := F) (W (Proc.devRef .tc main_v4))) (W (Proc.devRef .tc main_v5)) := by
  after_results_simp <;> rfl

/-- and the target array as it was. -/
theorem diff_v4 : after opsDiff W (Proc.devRef .tc main_v4) = W (Proc.devRef .tc main_v4) := by
  after_results_simp <;> rfl

/-- The loss as one function of D and T. -/
def loss (d t : (⟨S8192x3, .f32⟩ : BufTy).Contents (Elt F)) : (⟨S_, .f32⟩ : BufTy).Contents (Elt F) :=
  addf (constant S_ .f32 0x38D1B717#32)
    (Host.divf (Host.reduceAdd (Host.absf (Host.dotGeneral dot_S8192x3_S8192x3_S8192x8192_1_1_0_0_n_n none d t))
      (constant S_ .f32 0x00000000#32) reducesTo_S8192x8192_S_d0_1 h_S_) (constant S_ .f32 0x4C800000#32))

/-- The fourth stretch leaves the loss of D and T. -/
theorem loss_v12 : after opsLoss W (Proc.devRef .tc main_v12)
    = loss (F := F) (W (Proc.devRef .tc main_v7)) (W (Proc.devRef .tc main_v4)) := by
  after_results_simp <;> rfl

/-- The result buffer after the whole program is the reference's last stage function of the two arguments: the loss
    of D = log T - logsoftmax(scores) and T, with T the target array of the labels. -/
theorem result_stage (V : Valuation τ sig (Elt F)) :
    after (ValueP.ops (F := F)) V (Proc.devRef .tc main_v12)
      = val_main_v12 (F := F) (V (Proc.devRef .tc main_arg0)) (V (Proc.devRef .tc main_arg1)) := by
  rw [ops_split, StableHlo.after_append, StableHlo.after_append, StableHlo.after_append, StableHlo.after_append,
    loss_v12, diff_v7, diff_v4, rest_v5, rest_v4, rowmax_v0, rowmax_arg0, rowmax_v4, target_v4, target_arg0,
    LogSoftmaxStage.fromRowMax_stage]
  rfl

set_option maxRecDepth 8192 in
set_option maxHeartbeats 2000000 in
/-- No operation writes the scores: they end as launched. -/
theorem arg0_kept (V : Valuation τ sig (Elt F)) :
    after (ValueP.ops (F := F)) V (Proc.devRef .tc main_arg0) = V (Proc.devRef .tc main_arg0) := by
  after_results_simp <;> rfl

set_option maxRecDepth 8192 in
set_option maxHeartbeats 2000000 in
/-- No operation writes the labels: they end as launched. -/
theorem arg1_kept (V : Valuation τ sig (Elt F)) :
    after (ValueP.ops (F := F)) V (Proc.devRef .tc main_arg1) = V (Proc.devRef .tc main_arg1) := by
  after_results_simp <;> rfl

end Cert.ReferenceIdeal.RefValue

end
-- ==== Proof.CaseValues.lean ====
/-
  What each of the kernel body's three cases leaves behind, as values.

  The body keeps a one-entry accumulator between grid points.  At the first point it stores zero into it, reads
  that back, and stores the point's value over it; at every later point it reads the accumulator as the point
  before left it and stores the point's value; at the last point it also copies the accumulator, as just
  stored, into the output.  In every case what is stored is one function, the point's value, of the two input
  blocks and of the accumulator's contents at the start of the point (zero at the first).
-/
import proofs.«151473_j53927609369069_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

theorem origin : (![0, 0] : Fin 2 → Nat) = fun _ => 0 := funext fun a => by fin_cases a <;> rfl

/-- First point: the accumulator ends at the point's value over the zero just stored. -/
theorem scratch_first (c : Dev nD) (i : grid0.Coords) (a2 : Memref sig .tc .vmem S1024x3 .f32) (h2 : a2.IsWhole)
    (a3 : Memref sig .tc .vmem S3x1024 .f32) (h3 : a3.IsWhole) (a4 : Memref sig .tc .vmem S1x1 .f32) (h4 : a4.IsWhole)
    (a5 : Memref sig .tc .vmem S1x1 .f32) (h5 : a5.IsWhole) (hc0 : cond0_0 i) (hc1 : ¬cond0_1 i)
    (x0 : Vec F S1024x3 .f32) (x1 : Vec F S3x1024 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) origin, View.readCov_unit_zero (S := S1x1) _ origin]
  simp only [View.readAt_eq_ld, h2.read_unread, h3.read_unread, View.ld_unit_zero (S := S1024x3) origin,
    View.ld_unit_zero (S := S3x1024) origin]

/-- A middle point: the accumulator ends at the point's value over what the point before left. -/
theorem scratch_middle (c : Dev nD) (i : grid0.Coords) (a2 : Memref sig .tc .vmem S1024x3 .f32) (h2 : a2.IsWhole)
    (a3 : Memref sig .tc .vmem S3x1024 .f32) (h3 : a3.IsWhole) (a4 : Memref sig .tc .vmem S1x1 .f32) (h4 : a4.IsWhole)
    (a5 : Memref sig .tc .vmem S1x1 .f32) (h5 : a5.IsWhole) (hc0 : ¬cond0_0 i) (hc1 : ¬cond0_1 i)
    (x0 : Vec F S1024x3 .f32) (x1 : Vec F S3x1024 .f32) (xs : Vec F S1x1 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero (S := S1x1) origin]
  simp only [View.readAt_eq_ld, h2.read_unread, h3.read_unread, h5.read_unread, View.ld_unit_zero (S := S1024x3) origin,
    View.ld_unit_zero (S := S3x1024) origin, View.ld_unit_zero (S := S1x1) origin]

/-- Last point: the accumulator ends at the point's value over what the point before left, -/
theorem scratch_last (c : Dev nD) (i : grid0.Coords) (a2 : Memref sig .tc .vmem S1024x3 .f32) (h2 : a2.IsWhole)
    (a3 : Memref sig .tc .vmem S3x1024 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 : Vec F S1024x3 .f32) (x1 : Vec F S3x1024 .f32) (xs : Vec F S1x1 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero (S := S1x1) origin]
  simp only [View.readAt_eq_ld, h2.read_unread, h3.read_unread, h5.read_unread, View.ld_unit_zero (S := S1024x3) origin,
    View.ld_unit_zero (S := S3x1024) origin, View.ld_unit_zero (S := S1x1) origin]

/-- and the output's block is that same value, read back from the accumulator. -/
theorem output_last (c : Dev nD) (i : grid0.Coords) (a2 : Memref sig .tc .vmem S1024x3 .f32) (h2 : a2.IsWhole)
    (a3 : Memref sig .tc .vmem S3x1024 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 : Vec F S1024x3 .f32) (x1 : Vec F S3x1024 .f32) (xs : Vec F S1x1 .f32) :
    out0_C_2 c i a2 h2 a3 h3 a4 h4 a5 h5 hc0 hc1 x0 x1 xs = k0_pay2 x0 x1 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1x1) origin, View.readCov_unit_zero (S := S1x1) _ origin]
  simp only [View.readAt_eq_ld, h2.read_unread, h3.read_unread, h5.read_unread, View.ld_unit_zero (S := S1024x3) origin,
    View.ld_unit_zero (S := S3x1024) origin, View.ld_unit_zero (S := S1x1) origin]

end Cert.KernelIdeal.CaseValues

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibColumnCasts.lean ====
/-
  Shape casts between a vector and the column that holds it, read at an index given by coordinates.

  A vector of `a` entries and an `a` by 1 column list the same entries in the same row-major order, so a cast either
  way reads entry `i` of the one at row `i` of the other; likewise a scalar and a 1 by 1 array hold one entry.  These
  are the "keepdims" forms a row sum meets when its result is kept as a column: the vector-to-column cast after the
  sum, the column-to-vector cast when the column is handed back as a vector, and the scalar-to-array cast of a total.
  Also here: the sum over a vector's indices as the sum over its coordinates, and a lane sum over the second axis of a
  matrix at the ideal values, as the plain sum over the columns of one row.
-/
import Idealize.ShloMosaic.Lib.Pipeline.Value
import Idealize.ShloMosaic.Lib.ValueIdx
import Idealize.ShloMosaic.PureOps.Ideal.Laws

namespace Cert.ColumnCasts

open Idealize.ShloMosaic Idealize.ShloMosaic.ValueIdx
open scoped BigOperators

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar (rank 0) cast to a `[1, 1]` array reads, at its one index, the scalar: a rank-0 shape has one index. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  congrArg x (funext fun d => d.elim0)

/-- The indices of a vector of `n` entries are its coordinates. -/
def vectorIdxEquiv {n : ℕ} : (⟨1, ![n]⟩ : Shape).Idx ≃ Fin n where
  toFun i := i 0
  invFun := ix1
  left_inv i := (eq_ix1 i).symm
  right_inv _ := rfl

/-- A sum over the indices of a vector is the sum over its coordinates. -/
theorem sum_vectorIdx {M : Type} [AddCommMonoid M] {n : ℕ} (f : (⟨1, ![n]⟩ : Shape).Idx → M) :
    ∑ i, f i = ∑ o : Fin n, f (ix1 o) :=
  (Equiv.sum_comp (vectorIdxEquiv (n := n)).symm f).symm

/-- At the ideal values the lane sum of an `[a, b]` matrix over its second axis is, at row `p`, the sum over the
    columns `k` of the entry `(p, k)`.  The accumulator is the zero word, which is the neutral element of the sum. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

end Cert.ColumnCasts
-- ==== Proof.BlockSum.lean ====
/-
  One grid point's arithmetic, read on the extended reals.

  At a grid point the kernel holds a 1024 by 3 block `d` of the first operand and a 3 by 1024 block `t` of the
  second.  It forms the 1024 by 1024 tile whose entry (r, q) is  0 + d(r,0) t(0,q) + d(r,1) t(1,q) + d(r,2) t(2,q),
  that is  ∑_c d(r,c) t(c,q);  takes absolute values;  sums every row over its 1024 columns;  sums the 1024 row
  totals;  and adds the result to the one entry of the accumulator.  So the accumulator's entry afterwards is its
  entry before plus  ∑_r ∑_q |∑_c d(r,c) t(c,q)|.  On the extended reals |a| is max a (-a).
-/
import proofs.«151473_j53927609369069_1_alg».proof.Proof.Gen.KernelIdeal.Skeleton
import proofs.«151473_j53927609369069_1_alg».proof.Proof.LibKeepdims
import proofs.«151473_j53927609369069_1_alg».proof.Proof.LibColumnCasts
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.BlockSum

open Cert.KernelIdeal Idealize.ShloMosaic Idealize.ShloMosaic.ValueIdx
open scoped BigOperators

/-- The sum over one tile: all rows `r` and columns `q` of the absolute value of the three-term product sum. -/
def tileTotal (d : FVec Ideal S1024x3 .f32) (t : FVec Ideal S3x1024 .f32) : EReal :=
  ∑ r : Fin 1024, ∑ q : Fin 1024, max (∑ c : Fin 3, d (ix2 r c) * t (ix2 c q)) (-(∑ c : Fin 3, d (ix2 r c) * t (ix2 c q)))

/-- Column `k` of the block `d`, cut out as a 1024 by 1 column and spread over 1024 columns, reads `d (r, k)` at (r, q). -/
theorem column_piece (d : FVec Ideal S1024x3 .f32) (o : ℕ) (k : Fin 3) (hk : k.val = o)
    (hs : S1024x3.Slices ![0, o] S1024x1) (hb : S1024x1.Broadcasts S1024x1024) (r q : Fin 1024) :
    broadcastTo S1024x1024 (extractStridedSlice S1024x1 ![0, o] d hs) hb (ix2 r q) = d (ix2 r k) :=
  (Cert.Keepdims.broadcastTo_a1_ab_apply _ hb r q).trans
    (slice2_axis1_apply o d hs r (0 : Fin 1) k (by rw [hk]; rfl))

/-- Row `k` of the block `t`, cut out as a 1 by 1024 row and spread over 1024 rows, reads `t (k, q)` at (r, q). -/
theorem row_piece (t : FVec Ideal S3x1024 .f32) (o : ℕ) (k : Fin 3) (hk : k.val = o)
    (hs : S3x1024.Slices ![o, 0] S1x1024) (hb : S1x1024.Broadcasts S1024x1024) (r q : Fin 1024) :
    broadcastTo S1024x1024 (extractStridedSlice S1x1024 ![o, 0] t hs) hb (ix2 r q) = t (ix2 k q) :=
  (broadcastTo_1b_ab_apply _ hb r q).trans
    (slice2_axis0_apply o t hs (0 : Fin 1) q k (by rw [hk]; rfl))

/-- The tile's entry (r, q): zero plus the three products, which is the sum over the three classes. -/
theorem product_entry (d : FVec Ideal S1024x3 .f32) (t : FVec Ideal S3x1024 .f32)
    (hd0 : S1024x3.Slices ![0, 0] S1024x1) (hd1 : S1024x3.Slices ![0, 1] S1024x1) (hd2 : S1024x3.Slices ![0, 2] S1024x1)
    (ht0 : S3x1024.Slices ![0, 0] S1x1024) (ht1 : S3x1024.Slices ![1, 0] S1x1024) (ht2 : S3x1024.Slices ![2, 0] S1x1024)
    (hbd : S1024x1.Broadcasts S1024x1024) (hbt : S1x1024.Broadcasts S1024x1024) (r q : Fin 1024) :
    addf (addf (addf (broadcast S1024x1024 (Scalar.ofBits (F := Ideal) .f32 0x00000000#32))
        (mulf (broadcastTo S1024x1024 (extractStridedSlice S1024x1 ![0, 0] d hd0) hbd)
              (broadcastTo S1024x1024 (extractStridedSlice S1x1024 ![0, 0] t ht0) hbt)))
        (mulf (broadcastTo S1024x1024 (extractStridedSlice S1024x1 ![0, 1] d hd1) hbd)
              (broadcastTo S1024x1024 (extractStridedSlice S1x1024 ![1, 0] t ht1) hbt)))
        (mulf (broadcastTo S1024x1024 (extractStridedSlice S1024x1 ![0, 2] d hd2) hbd)
              (broadcastTo S1024x1024 (extractStridedSlice S1x1024 ![2, 0] t ht2) hbt)) (ix2 r q)
      = ∑ c : Fin 3, d (ix2 r c) * t (ix2 c q) := by
  rw [addf_apply, addf_apply, addf_apply, mulf_apply, mulf_apply, mulf_apply, broadcast_apply,
    column_piece d 0 0 rfl hd0 hbd r q, column_piece d 1 1 rfl hd1 hbd r q, column_piece d 2 2 rfl hd2 hbd r q,
    row_piece t 0 0 rfl ht0 hbt r q, row_piece t 1 1 rfl ht1 hbt r q, row_piece t 2 2 rfl ht2 hbt r q,
    Fin.sum_univ_three]
  show Ideal.ofBits .f32 0x00000000#32 + _ + _ + _ = _
  rw [Ideal.ofBits_zero_f32, zero_add]

/-- The value the kernel stores into the accumulator at a grid point: the accumulator's entry before, plus the
    tile total of the point's two blocks. -/
theorem pay2_apply (d : FVec Ideal S1024x3 .f32) (t : FVec Ideal S3x1024 .f32) (xs : FVec Ideal S1x1 .f32) (j : S1x1.Idx) :
    Gen.k0_pay2 (F := Ideal) d t xs j = xs j + tileTotal d t := by
  obtain ⟨a, b, rfl⟩ : ∃ (a : Fin 1) (b : Fin 1), j = ix2 a b := ⟨j 0, j 1, eq_ix2 j⟩
  unfold Gen.k0_pay2
  simp only [shapeCast_self]
  rw [addf_apply]
  refine congrArg (xs (ix2 a b) + ·) ?_
  -- the 1 by 1 cast of the one-entry vector of the column sum
  refine (Cert.ColumnCasts.shapeCast_a_a1_apply _ _ a b).trans ?_
  -- the column sum: every entry of the 1024 by 1 column of row totals
  refine (Ideal.multiReduction_add_total _ _ _ (fun ax => by fin_cases ax; rfl) _ _ (ix1 a)).trans ?_
  rw [sum_idx2]
  unfold tileTotal
  refine Finset.sum_congr rfl fun r _ => ?_
  rw [Fin.sum_univ_one]
  -- row r's total, kept as a column entry
  refine (Cert.ColumnCasts.shapeCast_a_a1_apply _ _ r 0).trans ?_
  refine (Cert.ColumnCasts.rowSum_apply _ _ _ _ r).trans ?_
  refine Finset.sum_congr rfl fun q _ => ?_
  show FloatOps.absf _ = _
  rw [Ideal.absf_def, product_entry]

end Cert.KernelIdeal.BlockSum

end
-- ==== Proof.SumLaws.lean ====
/-
  Finite sums in a commutative monoid, cut into tiles.

  The index range 0..8191 is eight consecutive tiles of 1024; index `1024 * I + r` is entry `r` of tile `I`.
  A sum over all pairs (i, j) of such indices is therefore the sum, over the 64 pairs of tiles (I, J), of the
  sum over one 1024 by 1024 tile; and the 64 pairs of tiles are numbered row by row, pair (I, J) being number
  `8 * I + J`, so that tile pair number `t` is `(t / 8, t % 8)`.  Only commutativity and associativity of the
  sum are used: the laws hold in any commutative monoid, the extended reals included, with no finiteness.
-/
import Mathlib.Algebra.BigOperators.Fin
import Mathlib.Data.Fintype.BigOperators

namespace Cert.SumLaws

open scoped BigOperators

variable {M : Type*} [AddCommMonoid M]

/-- Entry `r` of tile `I`: the index `1024 * I + r` below 8192. -/
def tileEntry (I : Fin 8) (r : Fin 1024) : Fin 8192 := ⟨1024 * I.val + r.val, by omega⟩

@[simp] theorem tileEntry_val (I : Fin 8) (r : Fin 1024) : (tileEntry I r).val = 1024 * I.val + r.val := rfl

/-- Every index below 8192 is exactly one entry of exactly one tile. -/
def tileEquiv : Fin 8 × Fin 1024 ≃ Fin 8192 where
  toFun p := tileEntry p.1 p.2
  invFun i := (⟨i.val / 1024, by omega⟩, ⟨i.val % 1024, by omega⟩)
  left_inv := by
    rintro ⟨I, r⟩
    refine Prod.ext (Fin.ext ?_) (Fin.ext ?_)
    · show (1024 * I.val + r.val) / 1024 = I.val
      omega
    · show (1024 * I.val + r.val) % 1024 = r.val
      omega
  right_inv i := Fin.ext (by
    show 1024 * (i.val / 1024) + i.val % 1024 = i.val
    omega)

/-- A sum over the indices below 8192 is the sum over the tiles of the sum over a tile's entries. -/
theorem sum_tiles (g : Fin 8192 → M) : ∑ i, g i = ∑ I : Fin 8, ∑ r : Fin 1024, g (tileEntry I r) := by
  rw [← Equiv.sum_comp tileEquiv g, Fintype.sum_prod_type]
  rfl

/-- Tile pair `(I, J)` is number `8 * I + J` of the 64. -/
def pairNumber (I J : Fin 8) : Fin 64 := ⟨8 * I.val + J.val, by omega⟩

/-- The tile pairs and their numbers correspond one to one. -/
def pairEquiv : Fin 8 × Fin 8 ≃ Fin 64 where
  toFun p := pairNumber p.1 p.2
  invFun t := (⟨t.val / 8, by omega⟩, ⟨t.val % 8, by omega⟩)
  left_inv := by
    rintro ⟨I, J⟩
    refine Prod.ext (Fin.ext ?_) (Fin.ext ?_)
    · show (8 * I.val + J.val) / 8 = I.val
      omega
    · show (8 * I.val + J.val) % 8 = J.val
      omega
  right_inv t := Fin.ext (by
    show 8 * (t.val / 8) + t.val % 8 = t.val
    omega)

/-- The first tile of pair number `t`. -/
def pairFst (t : Fin 64) : Fin 8 := ⟨t.val / 8, by omega⟩
/-- The second tile of pair number `t`. -/
def pairSnd (t : Fin 64) : Fin 8 := ⟨t.val % 8, by omega⟩

theorem pairFst_pairNumber (I J : Fin 8) : pairFst (pairNumber I J) = I :=
  Fin.ext (by show (8 * I.val + J.val) / 8 = I.val; omega)
theorem pairSnd_pairNumber (I J : Fin 8) : pairSnd (pairNumber I J) = J :=
  Fin.ext (by show (8 * I.val + J.val) % 8 = J.val; omega)

/-- A sum over the 64 numbers is the sum over the tile pairs. -/
theorem sum_pairs (g : Fin 64 → M) : ∑ t, g t = ∑ I : Fin 8, ∑ J : Fin 8, g (pairNumber I J) := by
  rw [← Equiv.sum_comp pairEquiv g, Fintype.sum_prod_type]
  rfl

/-- THE TILING LAW.  The sum over all pairs of indices below 8192 is the sum over the 64 tile pairs, in their
    numbering, of the sum over one tile pair's 1024 by 1024 entries. -/
theorem sum_all_pairs_eq_sum_tiles (f : Fin 8192 → Fin 8192 → M) :
    ∑ i, ∑ j, f i j
      = ∑ t : Fin 64, ∑ r : Fin 1024, ∑ q : Fin 1024, f (tileEntry (pairFst t) r) (tileEntry (pairSnd t) q) := by
  rw [sum_pairs, sum_tiles]
  refine Finset.sum_congr rfl fun I _ => ?_
  -- rows of tile I: for each row the sum over all columns, cut into the eight column tiles
  have h : ∀ r : Fin 1024, ∑ j, f (tileEntry I r) j = ∑ J : Fin 8, ∑ q : Fin 1024, f (tileEntry I r) (tileEntry J q) :=
    fun r => sum_tiles _
  rw [Finset.sum_congr rfl fun r _ => h r, Finset.sum_comm]
  refine Finset.sum_congr rfl fun J _ => ?_
  rw [pairFst_pairNumber, pairSnd_pairNumber]

/-- A running total that starts from `b 0` and adds `b (n + 1)` at step `n + 1` is, after step `n`, the sum of
    `b` over `0, …, n`. -/
theorem running_total (b : ℕ → M) (acc : ℕ → M) (h0 : acc 0 = b 0) (hs : ∀ n, acc (n + 1) = acc n + b (n + 1)) (n : ℕ) :
    acc n = ∑ t ∈ Finset.range (n + 1), b t := by
  induction n with
  | zero => rw [h0, Finset.sum_range_one]
  | succ n ih => rw [hs, ih, Finset.sum_range_succ _ (n + 1)]

end Cert.SumLaws
-- ==== Proof.Accumulate.lean ====
/-
  The running total across the grid.

  The grid's 64 points run in order.  The accumulator's one entry is zero plus the first point's tile total
  after point 0, and after every later point it is its entry after the point before plus that point's tile
  total: after point n it is the sum of the tile totals of points 0, …, n.  The output's block, written at the
  last point (number 63) only, is the accumulator's entry there: the sum of all 64 tile totals.
-/
import proofs.«151473_j53927609369069_1_alg».proof.Proof.CaseValues
import proofs.«151473_j53927609369069_1_alg».proof.Proof.BlockSum
import proofs.«151473_j53927609369069_1_alg».proof.Proof.SumLaws

noncomputable section

open Idealize.ShloMosaic Idealize.ShloMosaic.TcCoe Idealize.SL.Sem
open scoped BigOperators

namespace Cert.KernelIdeal.Accumulate

open Cert.KernelIdeal Cert.KernelIdeal.Gen Idealize.ShloMosaic.ValueIdx

variable (m : (ℓ : Loc nD τ sig) → Buf (Elt Ideal) ℓ)

/-- The value stored into the accumulator at the first point before anything else: zero. -/
theorem zero_entry (j : S1x1.Idx) : k0_pay1 (F := Ideal) j = 0 := by
  unfold k0_pay1
  simp only [shapeCast_self]
  show Ideal.ofBits .f32 0x00000000#32 = 0
  exact Ideal.ofBits_zero_f32

/-- The tile total of the two blocks the kernel holds at point `t`. -/
def tileAt (c : Dev nD) (t : Fin cfg0.N) : EReal := BlockSum.tileTotal (iblk m c 0 t) (iblk m c 1 t)

/-- The same by the point's number, zero past the grid's end. -/
def pointTotal (c : Dev nD) (t : ℕ) : EReal := if h : t < cfg0.N then tileAt m c ⟨t, h⟩ else 0

theorem pointTotal_of_lt (c : Dev nD) (t : ℕ) (h : t < cfg0.N) : pointTotal m c t = tileAt m c ⟨t, h⟩ := dif_pos h

/-- The accumulator after the first point: zero plus the point's tile total. -/
theorem entry_first (c : Dev nD) (t : Fin cfg0.N) (h0 : t.val % 64 = 0) (h1 : ¬t.val % 64 = 63) (j : S1x1.Idx) :
    (outsAt0 m c t.val t.isLt).2 j = tileAt m c t :=
  (congrFun ((congrArg Prod.snd (outsAt0_A m c t h0 h1)).trans
    (CaseValues.scratch_first (F := Ideal) c (grid0.coords t) (ms0_0 t) (hs0_0 t) (ms0_1 t) (hs0_1 t) (ms0_2 t) (hs0_2 t)
      scM0_0 (Memref.isWhole_whole _) ((hcond0_0 t).mpr h0) (fun h => h1 ((hcond0_1 t).mp h)) (iblk m c 0 t) (iblk m c 1 t))) j).trans
    ((BlockSum.pay2_apply (iblk m c 0 t) (iblk m c 1 t) (k0_pay1 (F := Ideal)) j).trans
      (by rw [zero_entry, zero_add]; rfl))

/-- The accumulator after a middle point: what the point before left, plus the point's tile total. -/
theorem entry_middle (c : Dev nD) (t : Fin cfg0.N) (h0 : ¬t.val % 64 = 0) (h1 : ¬t.val % 64 = 63) (j : S1x1.Idx) :
    (outsAt0 m c t.val t.isLt).2 j
      = (outsAt0 m c (t.val - 1) (Nat.lt_of_le_of_lt (Nat.sub_le _ _) t.isLt)).2 j + tileAt m c t :=
  (congrFun ((congrArg Prod.snd (outsAt0_B m c t h0 h1)).trans
    (CaseValues.scratch_middle (F := Ideal) c (grid0.coords t) (ms0_0 t) (hs0_0 t) (ms0_1 t) (hs0_1 t) (ms0_2 t) (hs0_2 t)
      scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2)) j).trans
    (BlockSum.pay2_apply (iblk m c 0 t) (iblk m c 1 t) (outsAt0 m c (t.val - 1) (Nat.lt_of_le_of_lt (Nat.sub_le _ _) t.isLt)).2 j)

/-- The accumulator after the last point: the same law. -/
theorem entry_last (c : Dev nD) (t : Fin cfg0.N) (h0 : ¬t.val % 64 = 0) (h1 : t.val % 64 = 63) (j : S1x1.Idx) :
    (outsAt0 m c t.val t.isLt).2 j
      = (outsAt0 m c (t.val - 1) (Nat.lt_of_le_of_lt (Nat.sub_le _ _) t.isLt)).2 j + tileAt m c t :=
  (congrFun ((congrArg Prod.snd (outsAt0_C m c t h0 h1)).trans
    (CaseValues.scratch_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2)) j).trans
    (BlockSum.pay2_apply (iblk m c 0 t) (iblk m c 1 t) (outsAt0 m c (t.val - 1) (Nat.lt_of_le_of_lt (Nat.sub_le _ _) t.isLt)).2 j)

/-- The output's block at the last point: the accumulator's new entry. -/
theorem output_last (c : Dev nD) (t : Fin cfg0.N) (h0 : ¬t.val % 64 = 0) (h1 : t.val % 64 = 63) (j : S1x1.Idx) :
    (outsAt0 m c t.val t.isLt).1 j
      = (outsAt0 m c (t.val - 1) (Nat.lt_of_le_of_lt (Nat.sub_le _ _) t.isLt)).2 j + tileAt m c t :=
  (congrFun ((congrArg Prod.fst (outsAt0_C m c t h0 h1)).trans
    (CaseValues.output_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2)) j).trans
    (BlockSum.pay2_apply (iblk m c 0 t) (iblk m c 1 t) (outsAt0 m c (t.val - 1) (Nat.lt_of_le_of_lt (Nat.sub_le _ _) t.isLt)).2 j)

/-- After point `n` the accumulator's entry is the sum of the tile totals of points 0, …, n. -/
theorem scratch_entry (c : Dev nD) : ∀ (n : ℕ) (h : n < cfg0.N) (j : S1x1.Idx),
    (outsAt0 m c n h).2 j = ∑ t ∈ Finset.range (n + 1), pointTotal m c t
  | 0, h, j => by
    rw [Finset.sum_range_one, pointTotal_of_lt m c 0 h]
    exact entry_first m c ⟨0, h⟩ rfl (show ¬(0 % 64 = 63) by decide) j
  | n + 1, h, j => by
    have hN : cfg0.N = 64 := N_0
    have h0 : ¬(n + 1) % 64 = 0 := by omega
    rw [Finset.sum_range_succ _ (n + 1), pointTotal_of_lt m c (n + 1) h, ← scratch_entry c n (Nat.lt_of_succ_lt h) j]
    by_cases h1 : (n + 1) % 64 = 63
    · exact entry_last m c ⟨n + 1, h⟩ h0 h1 j
    · exact entry_middle m c ⟨n + 1, h⟩ h0 h1 j

/-- The output's block at the last point is the sum of the tile totals of every point up to it. -/
theorem output_entry (c : Dev nD) (t : Fin cfg0.N) (h0 : ¬t.val % 64 = 0) (h1 : t.val % 64 = 63) (j : S1x1.Idx) :
    (outsAt0 m c t.val t.isLt).1 j = ∑ u ∈ Finset.range (t.val + 1), pointTotal m c u := by
  have hpos : t.val - 1 + 1 = t.val := by omega
  rw [output_last m c t h0 h1 j, scratch_entry m c (t.val - 1) _ j, hpos, Finset.sum_range_succ _ t.val,
    pointTotal_of_lt m c t.val t.isLt]

end Cert.KernelIdeal.Accumulate

end
-- ==== Proof.KernelRun.lean ====
/-
  The kernel's run, with its result named.

  The output is one entry.  Only the last grid point writes it back, and what it writes is the sum of the 64 tile
  totals (the running total of the accumulator); that one block is the whole 1 by 1 output array.  After the region
  the program casts the 1 by 1 array to a scalar, divides it by 2^26 and adds the constant 1e-4 (as a float word):
  the result is that tail applied to the sum of the tile totals.
-/
import proofs.«151473_j53927609369069_1_alg».proof.Proof.Accumulate
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)
open scoped BigOperators

namespace Cert.KernelIdeal.KernelRun

open Cert.KernelIdeal Cert.KernelIdeal.Gen Idealize.ShloMosaic.ValueIdx

variable (m : (ℓ : Loc nD τ sig) → Buf (Elt Ideal) ℓ) (ρ : Dev nD → PrngReg)

/-- The sum of the 64 points' tile totals. -/
def total (c : Dev nD) : EReal := ∑ u ∈ Finset.range 64, Accumulate.pointTotal m c u

/-- The output array after the run: its one entry is the total. -/
def outArr (c : Dev nD) : S1x1.Idx → EReal := fun _ => total m c

/-- The one write-back, at point 63, writes the total. -/
theorem flushed_eq (c : Dev nD) (t : Fin cfg0.N) (hf : (cfg0.win 2).flush t = true) :
    (dats m 0 c).flushed 2 t = ((cfg0.win 2).blk t).view.read (Elt Ideal) (outArr m c) := by
  have hN : cfg0.N = 64 := N_0
  have hlt := t.isLt
  have h1 : t.val % 64 = 63 := (flush0_2 t).mp hf
  have h63 : t.val = 63 := by omega
  funext y
  rw [View.read_apply]
  show (dats m 0 c).after 2 t _ = total m c
  rw [after0_2, Accumulate.output_entry m c t (by omega) h1 _, h63]
  rfl

/-- The output window's block at every point is the whole 1 by 1 array. -/
theorem out_block : ∀ (t : Fin cfg0.N) (a : Fin 2), win0_2.index t a * win0_2.size a = 0 ∧ win0_2.xsize (grid0.coords t) a = 1 :=
  (by decide +kernel : ∀ (t : Fin grid0.N) (a : Fin 2), win0_2.index t a * win0_2.size a = 0 ∧ win0_2.xsize (grid0.coords t) a = 1)

/-- The last grid point, number 63. -/
abbrev lastPoint : Fin cfg0.N := ⟨63, by rw [show cfg0.N = 64 from N_0]; decide⟩

/-- So the output array ends holding the total: the last point's block covers it. -/
theorem final (c : Dev nD) : (dats m 0 c).arrAt 2 cfg0.N = outArr m c :=
  (dats m 0 c).arrAt_eq_of_cover 2 (outArr m c) (flushed_eq m c) fun i =>
    ⟨lastPoint, (flush0_2 lastPoint).mpr (show 63 % 64 = 63 from rfl), by
      show i ∈ ((View.whole main_v9).slice (win0_2.rect lastPoint)).set
      rw [View.set_slice_whole, Rect.mem_set_unit]
      intro a
      have hb := out_block lastPoint a
      have hi : (i a : Nat) < 1 := by
        match a with
        | ⟨0, _⟩ => exact (i 0).isLt
        | ⟨1, _⟩ => exact (i 1).isLt
      show win0_2.index lastPoint a * win0_2.size a ≤ (i a : Nat)
        ∧ (i a : Nat) < win0_2.index lastPoint a * win0_2.size a + win0_2.xsize (grid0.coords lastPoint) a
      rw [hb.1, hb.2]; omega⟩

/-- The operations after the region, as one function of the 1 by 1 output array: cast to a scalar, divide by the
    word 0x4C800000 (2^26), add the word 0x38D1B717. -/
def tail (h : S1x1.ShapeCasts S_) (x : S1x1.Idx → EReal) : S_.Idx → EReal :=
  addf (constant (F := Ideal) S_ .f32 0x38D1B717#32)
    (Host.divf (F := Ideal) (shapeCast S_ x h) (constant (F := Ideal) S_ .f32 0x4C800000#32))

/-- What the lines after the region leave in the result buffer: the tail of the output array. -/
theorem result_eq (c : Dev nD) :
    Pipeline.afterTail₀ cfgs (dats m) 0 (V0 m) [hostOps1] c main_v12 = tail shapeCasts_S1x1_S_ (outArr m c) := by
  unfold Pipeline.afterTail₀
  show StableHlo.after hostOps1 _ (Proc.devRef .tc main_v12) = _
  after_results
  rw [show Pipeline.withArrays spec0 c (V0 m c) (fun w => (dats m 0 c).arrAt w cfg0.N) (Proc.devRef .tc main_v9)
      = outArr m c from (Pipeline.withArrays_arr spec0 launch0.win.arr_inj c _ _ 2).trans (final m c)]
  rfl

/-- The run: the result buffer at the tail of the total, the arguments unchanged. -/
theorem run : θ_run defs (onTc (τ := τ) (main (F := Ideal))) ⟨m, fun _ => 0, ρ⟩ fun r => ∀ c : Dev nD,
      r.2.mem ((c.tc : Thread nD τ).loc main_v12) = tail shapeCasts_S1x1_S_ (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v12 (Pipeline.mem_restRefs_of main_v12 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KernelRun

end
-- ==== Proof.Blocks.lean ====
/-
  The blocks the kernel holds at a grid point, as entries of the two operand arrays.

  Point number `t` of the 8 by 8 grid is the pair (t / 8, t % 8).  The first operand, 8192 by 3, is cut into
  eight blocks of 1024 rows and the point holds block t / 8 of it: entry (r, k) of the block is entry
  (1024 (t / 8) + r, k) of the array.  The second operand, 3 by 8192, is cut into eight blocks of 1024 columns
  and the point holds block t % 8: entry (k, q) of the block is entry (k, 1024 (t % 8) + q) of the array.
-/
import proofs.«151473_j53927609369069_1_alg».proof.Proof.Gen.KernelIdeal.Frame
import proofs.«151473_j53927609369069_1_alg».proof.Proof.SumLaws
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx Cert.SumLaws

variable (m : (ℓ : Loc nD τ sig) → Buf (Elt Ideal) ℓ)

/-- The first operand as the region finds it: the 8192 by 3 array. -/
abbrev firstArr (c : Dev nD) : S8192x3.Idx → EReal := V m c main_v7
/-- The second operand as the region finds it: the 3 by 8192 array. -/
abbrev secondArr (c : Dev nD) : S3x8192.Idx → EReal := V m c main_v8

/-- A grid point's number, as a number below 64. -/
def number (t : Fin cfg0.N) : Fin 64 := ⟨t.val, by have h := t.isLt; have hN : cfg0.N = 64 := N_0; omega⟩

/-- Which block of each operand a point holds: decided over the 64 points. -/
theorem block_indices : ∀ t : Fin cfg0.N,
    (win0_0.index t 0 = t.val / 8 ∧ win0_0.index t 1 = 0) ∧ (win0_1.index t 0 = 0 ∧ win0_1.index t 1 = t.val % 8) :=
  (by decide +kernel : ∀ t : Fin grid0.N,
    (win0_0.index t 0 = t.val / 8 ∧ win0_0.index t 1 = 0) ∧ (win0_1.index t 0 = 0 ∧ win0_1.index t 1 = t.val % 8))

/-- Entry (r, k) of the first operand's block at point `t` is the array's entry (1024 (t / 8) + r, k). -/
theorem first_block_entry (c : Dev nD) (t : Fin cfg0.N) (r : Fin 1024) (k : Fin 3) :
    iblk m c 0 t (ix2 r k) = firstArr m c (ix2 (tileEntry (pairFst (number t)) r) k) := by
  have hx := (block_indices t).1
  unfold iblk
  rw [View.read_apply]
  show V m c main_v7 _ = V m c main_v7 _
  refine congrArg (V m c main_v7) (funext fun a => Fin.ext ?_)
  match a with
  | ⟨0, _⟩ =>
    show win0_0.index t 0 * 1024 + 1 * r.val = 1024 * (t.val / 8) + r.val
    rw [hx.1]; omega
  | ⟨1, _⟩ =>
    show win0_0.index t 1 * 3 + 1 * k.val = k.val
    rw [hx.2]; omega

/-- Entry (k, q) of the second operand's block at point `t` is the array's entry (k, 1024 (t % 8) + q). -/
theorem second_block_entry (c : Dev nD) (t : Fin cfg0.N) (k : Fin 3) (q : Fin 1024) :
    iblk m c 1 t (ix2 k q) = secondArr m c (ix2 k (tileEntry (pairSnd (number t)) q)) := by
  have hx := (block_indices t).2
  unfold iblk
  rw [View.read_apply]
  show V m c main_v8 _ = V m c main_v8 _
  refine congrArg (V m c main_v8) (funext fun a => Fin.ext ?_)
  match a with
  | ⟨0, _⟩ =>
    show win0_1.index t 0 * 3 + 1 * k.val = k.val
    rw [hx.1]; omega
  | ⟨1, _⟩ =>
    show win0_1.index t 1 * 1024 + 1 * q.val = 1024 * (t.val % 8) + q.val
    rw [hx.2]; omega

end Cert.KernelIdeal.Blocks

end
-- ==== Proof.HostPrefix.lean ====
/-
  The two operands the kernel's region finds, as functions of the program's arguments.

  Before the region the kernel's program runs the same host operations as the reference: it builds the target
  array T from the labels, log-softmax of the scores, and D = log T - logsoftmax; and one more, the transpose of T.
  Read in the same stretches as the reference's, they leave D in the region's first operand and T transposed in its
  second, D and T being the very stage functions of the arguments that the reference's operations compute.
-/
import proofs.«151473_j53927609369069_1_alg».proof.Proof.Gen.KernelIdeal.Frame
import proofs.«151473_j53927609369069_1_alg».proof.Proof.RefRead
import proofs.«151473_j53927609369069_1_alg».proof.Proof.LogSoftmaxStage

noncomputable section

namespace Cert.KernelIdeal.HostPrefix

open Cert.KernelIdeal Cert.KernelIdeal.Gen Idealize.ShloMosaic Idealize.ShloMosaic.TcCoe Idealize.SL.Sem Idealize.ShloMosaic.StableHlo

variable {F : FTy → Type} [FloatOps F]

/-- The operations that build the target array: the first five stretches. -/
abbrev opsTarget : List (HloOp τ sig (Elt F)) := hostOps0 ++ hostOps0_1 ++ hostOps0_2 ++ hostOps0_3 ++ hostOps0_4

/-- The 2 operations of log-softmax that take the row maxima. -/
abbrev opsRowMax : List (HloOp τ sig (Elt F)) :=
  [ StableHlo.TRef.nullary (.of main_call2_cst : StableHlo.TRef sig ⟨S_, .f32⟩) (constant S_ .f32 0xFF800000#32),
    StableHlo.TRef.binary (.of main_arg0 : StableHlo.TRef sig ⟨S8192x3, .f32⟩) (.of main_call2_cst : StableHlo.TRef sig ⟨S_, .f32⟩) (.of main_call2_v0 : StableHlo.TRef sig ⟨S8192, .f32⟩) (fun x v => Host.reduce FloatOps.maximumf x v reducesTo_S8192x3_S8192_d1 h_S_) ]

/-- The other 13 operations of log-softmax. -/
abbrev opsLogSoftmaxRest : List (HloOp τ sig (Elt F)) :=
  [ StableHlo.TRef.nullary (.of main_call2_cst_0 : StableHlo.TRef sig ⟨S_, .f32⟩) (constant S_ .f32 0xFF800000#32),
    StableHlo.TRef.unary (.of main_call2_cst_0 : StableHlo.TRef sig ⟨S_, .f32⟩) (.of main_call2_v1 : StableHlo.TRef sig ⟨S8192, .f32⟩) (broadcastInDim S8192 ![] bcast_S_S8192),
    StableHlo.TRef.binary (.of main_call2_v1 : StableHlo.TRef sig ⟨S8192, .f32⟩) (.of main_call2_v0 : StableHlo.TRef sig ⟨S8192, .f32⟩) (.of main_call2_v2 : StableHlo.TRef sig ⟨S8192, .f32⟩) maximumf,
    StableHlo.TRef.unary (.of main_call2_v2 : StableHlo.TRef sig ⟨S8192, .f32⟩) (.of main_call2_v3 : StableHlo.TRef sig ⟨S8192x1, .f32⟩) (broadcastInDim S8192x1 ![0] bcast_S8192_S8192x1_0),
    StableHlo.TRef.unary (.of main_call2_v3 : StableHlo.TRef sig ⟨S8192x1, .f32⟩) (.of main_call2_v4 : StableHlo.TRef sig ⟨S8192x3, .f32⟩) (broadcastInDim S8192x3 ![0, 1] bcast_S8192x1_S8192x3_0_1),
    StableHlo.TRef.binary (.of main_arg0 : StableHlo.TRef sig ⟨S8192x3, .f32⟩) (.of main_call2_v4 : StableHlo.TRef sig ⟨S8192x3, .f32⟩) (.of main_call2_v5 : StableHlo.TRef sig ⟨S8192x3, .f32⟩) subf,
    StableHlo.TRef.unary (.of main_call2_v5 : StableHlo.TRef sig ⟨S8192x3, .f32⟩) (.of main_call2_v6 : StableHlo.TRef sig ⟨S8192x3, .f32⟩) Host.exp,
    StableHlo.TRef.nullary (.of main_call2_cst_1 : StableHlo.TRef sig ⟨S_, .f32⟩) (constant S_ .f32 0x00000000#32),
    StableHlo.TRef.binary (.of main_call2_v6 : StableHlo.TRef sig ⟨S8192x3, .f32⟩) (.of main_call2_cst_1 : StableHlo.TRef sig ⟨S_, .f32⟩) (.of main_call2_v7 : StableHlo.TRef sig ⟨S8192, .f32⟩) (fun x v => Host.reduceAdd x v reducesTo_S8192x3_S8192_d1 h_S_),
    StableHlo.TRef.unary (.of main_call2_v7 : StableHlo.TRef sig ⟨S8192, .f32⟩) (.of main_call2_v8 : StableHlo.TRef sig ⟨S8192x1, .f32⟩) (broadcastInDim S8192x1 ![0] bcast_S8192_S8192x1_0),
    StableHlo.TRef.unary (.of main_call2_v8 : StableHlo.TRef sig ⟨S8192x1, .f32⟩) (.of main_call2_v9 : StableHlo.TRef sig ⟨S8192x1, .f32⟩) Host.log,
    StableHlo.TRef.unary (.of main_call2_v9 : StableHlo.TRef sig ⟨S8192x1, .f32⟩) (.of main_call2_v10 : StableHlo.TRef sig ⟨S8192x3, .f32⟩) (broadcastInDim S8192x3 ![0, 1] bcast_S8192x1_S8192x3_0_1),
    StableHlo.TRef.binary (.of main_call2_v5 : StableHlo.TRef sig ⟨S8192x3, .f32⟩) (.of main_call2_v10 : StableHlo.TRef sig ⟨S8192x3, .f32⟩) (.of main_v5 : StableHlo.TRef sig ⟨S8192x3, .f32⟩) subf ]

/-- The operations before the region are: the target's, the row maxima's, the rest of log-softmax's, and the last three. -/
theorem prefix_split : (List.flatten [hostOps0, hostOps0_1, hostOps0_2, hostOps0_3, hostOps0_4, hostOps0_5, hostOps0_6] : List (HloOp τ sig (Elt F)))
    = opsTarget ++ opsRowMax ++ opsLogSoftmaxRest ++ hostOps0_6 := rfl

variable (W : Valuation τ sig (Elt F))

set_option maxHeartbeats 2000000 in
/-- The first five stretches leave the target array of the labels, -/
theorem target_v4 : after (opsTarget (F := F)) W (Proc.devRef .tc main_v4)
    = Cert.ReferenceIdeal.ReadP.val_main_v4 (F := F) (W (Proc.devRef .tc main_arg1)) := by
  simp only [opsTarget, hostOps0, hostOps0_1, hostOps0_2, hostOps0_3, hostOps0_4, List.cons_append, List.nil_append]
  after_results_simp <;> rfl

set_option maxHeartbeats 2000000 in
/-- and the scores as they were. -/
theorem target_arg0 : after (opsTarget (F := F)) W (Proc.devRef .tc main_arg0) = W (Proc.devRef .tc main_arg0) := by
  simp only [opsTarget, hostOps0, hostOps0_1, hostOps0_2, hostOps0_3, hostOps0_4, List.cons_append, List.nil_append]
  after_results_simp <;> rfl

/-- The row maxima: the max-reduce of the scores along each row. The operation's result is the reduction of what it
    reads, and reading and writing a buffer at its own type changes nothing. -/
theorem rowmax_v0 : after (opsRowMax (F := F)) W (Proc.devRef .tc main_call2_v0)
    = Cert.ReferenceIdeal.ReadP.val_main_call2_v0 (F := F) (W (Proc.devRef .tc main_arg0)) := by
  after_results_simp
  exact (eq_of_heq (cast_heq _ _)).trans rfl

/-- They leave the scores as they were, -/
theorem rowmax_arg0 : after (opsRowMax (F := F)) W (Proc.devRef .tc main_arg0) = W (Proc.devRef .tc main_arg0) := by
  after_results_simp <;> rfl

/-- and the target array as it was. -/
theorem rowmax_v4 : after (opsRowMax (F := F)) W (Proc.devRef .tc main_v4) = W (Proc.devRef .tc main_v4) := by
  after_results_simp <;> rfl

set_option maxHeartbeats 2000000 in
/-- The rest of log-softmax, from the scores and the row maxima, -/
theorem rest_v5 : after (opsLogSoftmaxRest (F := F)) W (Proc.devRef .tc main_v5)
    = Cert.ReferenceIdeal.LogSoftmaxStage.fromRowMax (F := F) (W (Proc.devRef .tc main_arg0)) (W (Proc.devRef .tc main_call2_v0)) := by
  after_results_simp <;> rfl

set_option maxHeartbeats 2000000 in
/-- leaves the target array as it was. -/
theorem rest_v4 : after (opsLogSoftmaxRest (F := F)) W (Proc.devRef .tc main_v4) = W (Proc.devRef .tc main_v4) := by
  after_results_simp <;> rfl

/-- The last stretch leaves log T - logsoftmax in the first operand, -/
theorem last_v7 : after (hostOps0_6 (F := F)) W (Proc.devRef .tc main_v7)
    = subf (Host.log (F := F) (W (Proc.devRef .tc main_v4))) (W (Proc.devRef .tc main_v5)) := by
  after_results_simp <;> rfl

/-- and T transposed in the second. -/
theorem last_v8 : after (hostOps0_6 (F := F)) W (Proc.devRef .tc main_v8)
    = transpose S3x8192 [1, 0] (W (Proc.devRef .tc main_v4)) transposes_S8192x3_S3x8192_1_0 := by
  after_results_simp <;> rfl

variable (m : (ℓ : Loc nD τ sig) → Buf (Elt F) ℓ)

/-- The region's first operand is D, the reference's stage function of the two arguments. -/
theorem first_operand (c : Dev nD) : V m c main_v7
    = Cert.ReferenceIdeal.ReadP.val_main_v7 (F := F) (m ((c : Thread nD τ).loc main_arg0)) (m ((c : Thread nD τ).loc main_arg1)) := by
  show after (List.flatten [hostOps0, hostOps0_1, hostOps0_2, hostOps0_3, hostOps0_4, hostOps0_5, hostOps0_6]) (fun b => m (c, b)) (Proc.devRef .tc main_v7) = _
  rw [prefix_split, StableHlo.after_append, StableHlo.after_append, StableHlo.after_append, last_v7, rest_v5, rest_v4,
    rowmax_v0, rowmax_arg0, rowmax_v4, target_v4, target_arg0, Cert.ReferenceIdeal.LogSoftmaxStage.fromRowMax_stage]
  rfl

/-- The region's second operand is the transpose of T, the reference's target array of the labels. -/
theorem second_operand (c : Dev nD) : V m c main_v8
    = transpose S3x8192 [1, 0] (Cert.ReferenceIdeal.ReadP.val_main_v4 (F := F) (m ((c : Thread nD τ).loc main_arg1))) transposes_S8192x3_S3x8192_1_0 := by
  show after (List.flatten [hostOps0, hostOps0_1, hostOps0_2, hostOps0_3, hostOps0_4, hostOps0_5, hostOps0_6]) (fun b => m (c, b)) (Proc.devRef .tc main_v8) = _
  rw [prefix_split, StableHlo.after_append, StableHlo.after_append, StableHlo.after_append, last_v8, rest_v4, rowmax_v4, target_v4]

end Cert.KernelIdeal.HostPrefix

end
-- ==== Proof.Bridge.lean ====
/-
  Both programs compute one number.

  Write D for the 8192 by 3 array log T - logsoftmax(scores) and T for the 8192 by 3 target array; both programs
  build them by the same host operations.  The reference forms every entry  M(i,j) = ∑_k D(i,k) T(j,k)  of the 8192
  by 8192 product, takes absolute values, and sums all entries from zero.  The kernel visits the 64 tile pairs of
  1024 rows by 1024 columns in order and adds up, tile by tile, the same absolute values (its second operand is T
  transposed, so its entry (k, j) is T(j,k)).  The two totals are one sum taken in two groupings, equal in any
  commutative monoid: no finiteness of the entries is needed.  Both programs then divide the total by the same
  word and add the same word.
-/
import proofs.«151473_j53927609369069_1_alg».proof.Proof.KernelRun
import proofs.«151473_j53927609369069_1_alg».proof.Proof.Blocks
import proofs.«151473_j53927609369069_1_alg».proof.Proof.HostPrefix
import proofs.«151473_j53927609369069_1_alg».proof.Proof.RefRead
import proofs.«151473_j53927609369069_1_alg».proof.Proof.SumLaws
import Idealize.ShloMosaic.Lib.ValueLayout
import Idealize.ShloMosaic.PureOps.Ideal.Laws

noncomputable section

open Idealize.ShloMosaic Idealize.ShloMosaic.TcCoe Idealize.SL.Sem Idealize.ShloMosaic.ValueIdx Cert.SumLaws
open scoped BigOperators

namespace Cert.Bridge

/-- The sum over all pairs (i, j) of |∑_k D(i,k) T(j,k)|, with |a| = max a (-a) on the extended reals. -/
def pairSum (D T : (⟨2, ![8192, 3]⟩ : Shape).Idx → EReal) : EReal :=
  ∑ i : Fin 8192, ∑ j : Fin 8192,
    max (∑ k : Fin 3, D (ix2 i k) * T (ix2 j k)) (-(∑ k : Fin 3, D (ix2 i k) * T (ix2 j k)))

/-! ## The kernel's total -/

section Kernel

open Cert.KernelIdeal Cert.KernelIdeal.Gen

variable (m : (ℓ : Loc nD τ sig) → Buf (Elt Ideal) ℓ)

/-- D, of the kernel's arguments. -/
abbrev Dk (c : Dev nD) : (⟨2, ![8192, 3]⟩ : Shape).Idx → EReal :=
  Cert.ReferenceIdeal.ReadP.val_main_v7 (F := Ideal) (m ((c : Thread nD τ).loc main_arg0)) (m ((c : Thread nD τ).loc main_arg1))
/-- T, of the kernel's arguments. -/
abbrev Tk (c : Dev nD) : (⟨2, ![8192, 3]⟩ : Shape).Idx → EReal :=
  Cert.ReferenceIdeal.ReadP.val_main_v4 (F := Ideal) (m ((c : Thread nD τ).loc main_arg1))

/-- An entry of the first block at a grid point is an entry of D. -/
theorem first_entry (c : Dev nD) (t : Fin cfg0.N) (r : Fin 1024) (k : Fin 3) :
    iblk m c 0 t (ix2 r k) = Dk m c (ix2 (tileEntry (pairFst (Blocks.number t)) r) k) := by
  rw [Blocks.first_block_entry m c t r k]
  unfold Blocks.firstArr
  rw [HostPrefix.first_operand m c]

/-- An entry (k, q) of the second block at a grid point is the entry of T at the block's column and class k. -/
theorem second_entry (c : Dev nD) (t : Fin cfg0.N) (k : Fin 3) (q : Fin 1024) :
    iblk m c 1 t (ix2 k q) = Tk m c (ix2 (tileEntry (pairSnd (Blocks.number t)) q) k) := by
  rw [Blocks.second_block_entry m c t k q]
  unfold Blocks.secondArr
  rw [HostPrefix.second_operand m c, transpose_ix2_apply]

/-- The tile total at a grid point, in the arrays' coordinates. -/
theorem tileAt_eq (c : Dev nD) (t : Fin cfg0.N) :
    Accumulate.tileAt m c t = ∑ r : Fin 1024, ∑ q : Fin 1024,
      max (∑ k : Fin 3, Dk m c (ix2 (tileEntry (pairFst (Blocks.number t)) r) k) * Tk m c (ix2 (tileEntry (pairSnd (Blocks.number t)) q) k))
        (-(∑ k : Fin 3, Dk m c (ix2 (tileEntry (pairFst (Blocks.number t)) r) k) * Tk m c (ix2 (tileEntry (pairSnd (Blocks.number t)) q) k))) := by
  unfold Accumulate.tileAt BlockSum.tileTotal
  simp only [first_entry m c t, second_entry m c t]

/-- The kernel's total is the sum over all pairs: the tiling law. -/
theorem total_eq (c : Dev nD) : KernelRun.total m c = pairSum (Dk m c) (Tk m c) := by
  unfold KernelRun.total pairSum
  rw [sum_all_pairs_eq_sum_tiles, Finset.sum_range]
  refine Finset.sum_congr rfl fun t _ => ?_
  have hN : cfg0.N = 64 := N_0
  have ht : t.val < cfg0.N := by rw [hN]; exact t.isLt
  rw [Accumulate.pointTotal_of_lt m c t.val ht, tileAt_eq m c ⟨t.val, ht⟩]
  rfl

end Kernel

/-! ## The reference's total -/

section Reference

open Cert.ReferenceIdeal Cert.ReferenceIdeal.Gen Cert.ReferenceIdeal.ReadP

theorem lidx_eq (a b : Fin 8192) (k : Fin 3) : lidx_main_v8 (ix2 a b) k = ix2 a k :=
  funext fun d => match d with | ⟨0, _⟩ => rfl | ⟨1, _⟩ => rfl
theorem ridx_eq (a b : Fin 8192) (k : Fin 3) : ridx_main_v8 (ix2 a b) k = ix2 b k :=
  funext fun d => match d with | ⟨0, _⟩ => rfl | ⟨1, _⟩ => rfl

/-- The reference's sum of all entries, from zero, is the sum over all pairs. -/
theorem sum_stage (x0 : (⟨S8192x3, .f32⟩ : BufTy).Contents (Elt Ideal)) (x1 : (⟨S8192, .i32⟩ : BufTy).Contents (Elt Ideal)) (i : S_.Idx) :
    val_main_v10 (F := Ideal) x0 x1 i = pairSum (val_main_v7 (F := Ideal) x0 x1) (val_main_v4 (F := Ideal) x1) := by
  rw [val_main_v10_apply, val_main_cst_2_apply]
  show Ideal.ofBits .f32 0x00000000#32 + _ = _
  rw [Ideal.ofBits_zero_f32, zero_add, sum_idx2]
  unfold pairSum
  refine Finset.sum_congr rfl fun a _ => Finset.sum_congr rfl fun b _ => ?_
  rw [val_main_v9_apply, Ideal.hostAbsf_def, Ideal.absf_def, val_main_v8_apply]
  simp only [lidx_eq, ridx_eq]

end Reference

/-! ## The two results -/

/-- The reference's result, the last stage function of arguments equal to the kernel's, is the kernel's result: the
    same two words around the same total. -/
theorem results_agree (m : (ℓ : Loc Cert.KernelIdeal.nD Cert.KernelIdeal.τ Cert.KernelIdeal.sig) → Buf (Elt Ideal) ℓ) (c : Dev Cert.KernelIdeal.nD) :
    Cert.ReferenceIdeal.ReadP.val_main_v12 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
      = Cert.KernelIdeal.KernelRun.tail Cert.KernelIdeal.Gen.shapeCasts_S1x1_S_ (Cert.KernelIdeal.KernelRun.outArr m c) := by
  funext i
  rw [Cert.ReferenceIdeal.ReadP.val_main_v12_apply, Cert.ReferenceIdeal.ReadP.val_main_v11_apply, sum_stage, ← total_eq m c]
  rfl

end Cert.Bridge

end
-- ==== Proof.lean ====
/-
  The five claims about a pairwise "KL-style" loss over 8192 rows of 3 classes.

  From scores s and labels t both programs build, by the same host operations, the target array T (the one-hot
  array of t clipped to [1e-4, 1], times the class weights) and D = log T - logsoftmax(s), and then
      loss = 1e-4 + (∑ over all pairs (i,j) of |∑_k D(i,k) T(j,k)|) / 2^26 .
  The reference forms the whole 8192 by 8192 product and sums it.  The kernel never forms it: a region over an 8 by 8
  grid holds one 1024-row block of D and one 1024-column block of T transposed at a time, sums the absolute values
  of that 1024 by 1024 tile, and adds the tile's total to a one-entry accumulator kept across the 64 grid points,
  written out at the last.  On the extended reals the two totals are one finite sum in two groupings, equal by
  commutativity and associativity alone: the precondition (finite scores) is never opened.

  Frames: the two kernel programs' are the generated frame certificates; the reference has no kernel, and its frame
  is its straight-line run with the result dropped.  The idealization rewrote nothing, so `preserves` is `True`.
-/
import proofs.«151473_j53927609369069_1_alg».proof.Defs
import proofs.«151473_j53927609369069_1_alg».proof.Proof.Gen.Kernel
import proofs.«151473_j53927609369069_1_alg».proof.Proof.Gen.Kernel.Skeleton
import proofs.«151473_j53927609369069_1_alg».proof.Proof.Gen.Kernel.Launch
import proofs.«151473_j53927609369069_1_alg».proof.Proof.Gen.Kernel.Points
import proofs.«151473_j53927609369069_1_alg».proof.Proof.Gen.Kernel.Frame
import proofs.«151473_j53927609369069_1_alg».proof.Proof.Gen.KernelIdeal
import proofs.«151473_j53927609369069_1_alg».proof.Proof.Gen.KernelIdeal.Skeleton
import proofs.«151473_j53927609369069_1_alg».proof.Proof.Gen.KernelIdeal.Launch
import proofs.«151473_j53927609369069_1_alg».proof.Proof.Gen.KernelIdeal.Points
import proofs.«151473_j53927609369069_1_alg».proof.Proof.Gen.KernelIdeal.Frame
import proofs.«151473_j53927609369069_1_alg».proof.Proof.Gen.ReferenceIdeal
import proofs.«151473_j53927609369069_1_alg».proof.Proof.Gen.Pre_finite_inputs
import proofs.«151473_j53927609369069_1_alg».proof.Proof.RefRun
import proofs.«151473_j53927609369069_1_alg».proof.Proof.RefValue
import proofs.«151473_j53927609369069_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: none of its operations writes them. -/
theorem frame_reference : Cert.frame_ReferenceIdeal := fun m ρ _ =>
  (θ_run Cert.ReferenceIdeal.defs _ _).mono
    (fun _ h c => ⟨(h c Cert.ReferenceIdeal.main_arg0).trans (Cert.ReferenceIdeal.RefValue.arg0_kept _),
      (h c Cert.ReferenceIdeal.main_arg1).trans (Cert.ReferenceIdeal.RefValue.arg1_kept _)⟩)
    (Cert.ReferenceIdeal.ValueP.run (F := Ideal) m ρ)

/-- The idealization is the program's own text read on the extended reals: nothing to state. -/
theorem preserves : Cert.preserves_Kernel_KernelIdeal := trivial

/-- From memories agreeing on the arguments both idealized programs end with the same result: the kernel's tail of
    its total, which is the reference's last stage of the same arguments. -/
theorem algebraic : Cert.algebraic_KernelIdeal_ReferenceIdeal := by
  intro m ρ m' ρ' _ hagree
  refine ⟨fun c => Cert.KernelIdeal.KernelRun.tail Cert.KernelIdeal.Gen.shapeCasts_S1x1_S_ (Cert.KernelIdeal.KernelRun.outArr m c),
    Cert.KernelIdeal.KernelRun.run m ρ, ?_⟩
  refine (θ_run Cert.ReferenceIdeal.defs _ _).mono (fun _ h c =>
    ⟨?_, (h c Cert.ReferenceIdeal.main_arg0).trans (Cert.ReferenceIdeal.RefValue.arg0_kept _),
      (h c Cert.ReferenceIdeal.main_arg1).trans (Cert.ReferenceIdeal.RefValue.arg1_kept _)⟩)
    (Cert.ReferenceIdeal.ValueP.run (F := Ideal) m' ρ')
  refine ((h c Cert.ReferenceIdeal.main_v12).trans (Cert.ReferenceIdeal.RefValue.result_stage _)).trans ?_
  show Cert.ReferenceIdeal.ReadP.val_main_v12 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
  rw [(hagree c).1, (hagree c).2]
  exact Cert.Bridge.results_agree m c

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
